-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S4096x8 : Shape := ⟨2, ![4096, 8]⟩
abbrev S4096 : Shape := ⟨1, ![4096]⟩
abbrev S1024x4096 : Shape := ⟨2, ![1024, 4096]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S4096x8 : S_.BroadcastsInDim S4096x8 (![] : Fin 0 → Fin S4096x8.rank)
  reducesTo_S4096x8_S_d0_1 : S4096x8.ReducesTo [0, 1] S_
  bcast_S_S4096 : S_.BroadcastsInDim S4096 (![] : Fin 0 → Fin S4096.rank)
  reducesTo_S4096_S_d0 : S4096.ReducesTo [0] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x4096x1024 .f32) (main_arg1 : FVec F S4096x8 .f32) (main_arg2 : FVec F S4096 .f32) (main_arg3 : FVec F S1024x4096 .f32) (main_arg4 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4096x8 .f32 := Host.absf main_arg1
  let main_cst_0 : FVec F S_ .f32 := constant S_ .f32 0x7F800000#32
  let main_v5 : FVec F S4096x8 .f32 := broadcastInDim S4096x8 ![] bcast_S_S4096x8 main_cst_0
  let main_v6 : IVec S4096x8 1 := cmpf .olt main_v4 main_v5
  let main_c_1 : IVec S_ 1 := constantI S_ 1 1#1
  let main_v7 : IVec S_ 1 := (fun x v => Host.reduce IntOp.andi x v reducesTo_S4096x8_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_v13 main_v16
-- ==== Kernel.lean ====
abbrev S4x4096x1024 : Shape := ⟨3, ![4, 4096, 1024]⟩
abbrev S4096x8 : Shape := ⟨2, ![4096, 8]⟩
abbrev S4096 : Shape := ⟨1, ![4096]⟩
abbrev S1024x4096 : Shape := ⟨2, ![1024, 4096]⟩
abbrev S1024 : Shape := ⟨1, ![1024]⟩
abbrev S16384x1024 : Shape := ⟨2, ![16384, 1024]⟩
abbrev S16384x8 : Shape := ⟨2, ![16384, 8]⟩
abbrev S8x4096 : Shape := ⟨2, ![8, 4096]⟩
abbrev S4096x1024 : Shape := ⟨2, ![4096, 1024]⟩
abbrev S1x4096 : Shape := ⟨2, ![1, 4096]⟩
abbrev S1x1024 : Shape := ⟨2, ![1, 1024]⟩
abbrev S512x8 : Shape := ⟨2, ![512, 8]⟩
abbrev S512x1024 : Shape := ⟨2, ![512, 1024]⟩
abbrev S512x4096 : Shape := ⟨2, ![512, 4096]⟩

abbrev nBuf : Space → Nat
  | .hbm => 15
  | .vmem => 8
  | .smem => 0
  | _ => 0

abbrev bufTy : (tb : Table) → Fin (tcTables nBuf tb) → BufTy
  | .hbm, ⟨0, _⟩ => ⟨S4x4096x1024, .f32⟩
  | .hbm, ⟨1, _⟩ => ⟨S4096x8, .f32⟩
  | .hbm, ⟨2, _⟩ => ⟨S4096, .f32⟩
  | .hbm, ⟨3, _⟩ => ⟨S1024x4096, .f32⟩
  | .hbm, ⟨4, _⟩ => ⟨S1024, .f32⟩
  | .hbm, ⟨5, _⟩ => ⟨S16384x1024, .f32⟩
  | .hbm, ⟨6, _⟩ => ⟨S16384x8, .f32⟩
  | .hbm, ⟨7, _⟩ => ⟨S8x4096, .f32⟩
  | .hbm, ⟨8, _⟩ => ⟨S8x4096, .bf16⟩
  | .hbm, ⟨9, _⟩ => ⟨S4096x1024, .f32⟩
  | .hbm, ⟨10, _⟩ => ⟨S4096x1024, .bf16⟩
  | .hbm, ⟨11, _⟩ => ⟨S1x4096, .f32⟩
  | .hbm, ⟨12, _⟩ => ⟨S1x1024, .f32⟩
  | .hbm, ⟨13, _⟩ => ⟨S16384x1024, .f32⟩
  | .hbm, ⟨14, _⟩ => ⟨S4x4096x1024, .f32⟩
  | .local _ .vmem, ⟨0, _⟩ => ⟨S512x8, .f32⟩
  | .local _ .vmem, ⟨1, _⟩ => ⟨S512x8, .f32⟩
  | .local _ .vmem, ⟨2, _⟩ => ⟨S8x4096, .bf16⟩
  | .local _ .vmem, ⟨3, _⟩ => ⟨S1x4096, .f32⟩
  | .local _ .vmem, ⟨4, _⟩ => ⟨S4096x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4x4096x1024_S16384x1024 : S4x4096x1024.ShapeCasts S16384x1024
  slices_S16384x1024_S16384x8_0_0 : S16384x1024.Slices ![0, 0] S16384x8
  transposes_S4096x8_S8x4096_1_0 : S4096x8.Transposes [1, 0] S8x4096
  bitsLt_bf16_f32 : FTy.bits .bf16 < FTy.bits .f32
  transposes_S1024x4096_S4096x1024_1_0 : S1024x4096.Transposes [1, 0] S4096x1024
  shapeCasts_S4096_S1x4096 : S4096.ShapeCasts S1x4096
  shapeCasts_S1024_S1x1024 : S1024.ShapeCasts S1x1024
  inb_S512x8_S512x8_0_0 : ∀ a, (![0, 0] : Fin 2 → Nat) a + S512x8.size a ≤ S512x8.size a
  h_S512x8 : 0 < S512x8.numel
  shapeCasts_S512x8_S512x8 : S512x8.ShapeCasts S512x8
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  shapeCasts_S16384x1024_S4x4096x1024 : S16384x1024.ShapeCasts S4x4096x1024
  dot_S512x8_S8x4096_S512x4096_1_0_0_1_n_n_wf : DotDims.WF S512x8 S8x4096 S512x4096 [1] [0] [0] [1] [] []
  dot_S512x4096_S4096x1024_S512x1024_1_0_0_1_n_n_wf : DotDims.WF S512x4096 S4096x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8.size a ≤ S16384x8.size a
  hwx0_0 : ∀ i : grid0.Coords, EltTy.bits .f32 = 32 ∨ (Rect.block (s := S16384x8) S512x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x4096.size a ≤ S8x4096.size a
  hwx0_1 : ∀ i : grid0.Coords, EltTy.bits .bf16 = 32 ∨ (Rect.block (s := S8x4096) S8x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S16384x1024.size a
  hwx0_5 : ∀ i : grid0.Coords, EltTy.bits .f32 = 32 ∨ (Rect.block (s := S16384x1024) S512x1024.size (cc0_transform_5 i) (hinb0_5 i)).WholeWords (EltTy.packing .f32)

variable [Facts₀]

def dot_S512x8_S8x4096_S512x4096_1_0_0_1_n_n : DotDims S512x8 S8x4096 S512x4096 where
  lhsContracting := [1]
  rhsContracting := [0]
  lhsNonContracting := [0]
  rhsNonContracting := [1]
  lhsBatch := []
  rhsBatch := []
  wf := dot_S512x8_S8x4096_S512x4096_1_0_0_1_n_n_wf
def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_v1) S512x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S8x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S4096x8 : Shape := ⟨2, ![4096, 8]⟩
abbrev S4096 : Shape := ⟨1, ![4096]⟩
abbrev S1024x4096 : Shape := ⟨2, ![1024, 4096]⟩
abbrev S1024 : Shape := ⟨1, ![1024]⟩
abbrev S4x4096x8 : Shape := ⟨3, ![4, 4096, 8]⟩
abbrev S4x4096x4096 : Shape := ⟨3, ![4, 4096, 4096]⟩
abbrev S1x1x4096 : Shape := ⟨3, ![1, 1, 4096]⟩
abbrev S_ : Shape := ⟨0, ![]⟩
abbrev S1x1x1024 : Shape := ⟨3, ![1, 1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4096x8, .f32⟩
  | .hbm, ⟨2, _⟩ => ⟨S4096, .f32⟩
  | .hbm, ⟨3, _⟩ => ⟨S1024x4096, .f32⟩
  | .hbm, ⟨4, _⟩ => ⟨S1024, .f32⟩
  | .hbm, ⟨5, _⟩ => ⟨S4x4096x8, .f32⟩
  | .hbm, ⟨6, _⟩ => ⟨S4x4096x8, .f32⟩
  | .hbm, ⟨7, _⟩ => ⟨S4x4096x4096, .f32⟩
  | .hbm, ⟨8, _⟩ => ⟨S1x1x4096, .f32⟩
  | .hbm, ⟨9, _⟩ => ⟨S4x4096x4096, .f32⟩
  | .hbm, ⟨10, _⟩ => ⟨S4x4096x4096, .f32⟩
  | .hbm, ⟨11, _⟩ => ⟨S_, .f32⟩
  | .hbm, ⟨12, _⟩ => ⟨S4x4096x4096, .f32⟩
  | .hbm, ⟨13, _⟩ => ⟨S4x4096x4096, .f32⟩
  | .hbm, ⟨14, _⟩ => ⟨S4x4096x1024, .f32⟩
  | .hbm, ⟨15, _⟩ => ⟨S1x1x1024, .f32⟩
  | .hbm, ⟨16, _⟩ => ⟨S4x4096x1024, .f32⟩
  | .hbm, ⟨17, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_cst : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]

class Facts₀ : Prop where
  slices_S4x4096x1024_S4x4096x8_0_0_0 : S4x4096x1024.Slices ![0, 0, 0] S4x4096x8
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  bcast_S_S4x4096x4096 : S_.BroadcastsInDim S4x4096x4096 (![] : Fin 0 → Fin S4x4096x4096.rank)
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  dot_S4x4096x8_S4096x8_S4x4096x4096_2_1_01_0_n_n_wf : DotDims.WF S4x4096x8 S4096x8 S4x4096x4096 [2] [1] [0, 1] [0] [] []
  dot_S4x4096x4096_S1024x4096_S4x4096x1024_2_1_01_0_n_n_wf : DotDims.WF S4x4096x4096 S1024x4096 S4x4096x1024 [2] [1] [0, 1] [0] [] []

variable [Facts₀]

def dot_S4x4096x8_S4096x8_S4x4096x4096_2_1_01_0_n_n : DotDims S4x4096x8 S4096x8 S4x4096x4096 where
  lhsContracting := [2]
  rhsContracting := [1]
  lhsNonContracting := [0, 1]
  rhsNonContracting := [0]
  lhsBatch := []
  rhsBatch := []
  wf := dot_S4x4096x8_S4096x8_S4x4096x4096_2_1_01_0_n_n_wf
def dot_S4x4096x4096_S1024x4096_S4x4096x1024_2_1_01_0_n_n : DotDims S4x4096x4096 S1024x4096 S4x4096x1024 where
  lhsContracting := [2]
  rhsContracting := [1]
  lhsNonContracting := [0, 1]
  rhsNonContracting := [0]
  lhsBatch := []
  rhsBatch := []
  wf := dot_S4x4096x4096_S1024x4096_S4x4096x1024_2_1_01_0_n_n_wf

class Facts : Prop extends Facts₀ where

variable [Facts]
-- ==== Proof.LibPlainDot.lean ====
/-
  A plain matrix product read at an index, at the ideal values.

  For the plain dimension numbers of an `[M, K]` by `[K, N]` product (contract the left operand's second axis with the
  right operand's first; no batch axis) the contraction index has one coordinate, so the sum over it is a sum over
  `k : Fin K`, and the operand indices at the result index `(p, q)` are `(p, k)` and `(k, q)`. Hence, on the extended
  reals, a matrix-unit product accumulated into the zero splat and a host `dot_general` are ONE function of their
  operands, `rowsTimes`: entry `(p, q)` is `∑ k, l (p, k) * r (k, q)`.

  `rowsTimes` of a block of rows is that block of rows of `rowsTimes` (`rowsTimes_rows`): an entry depends on its own
  row of the left operand only.
-/
import Idealize.ShloMosaic.PureOps.Ideal.Laws
import Idealize.ShloMosaic.Lib.ValueIdx

noncomputable section

namespace Cert.LibPlainDot

open Idealize.ShloMosaic Idealize.ShloMosaic.ValueIdx

/-- The product of an `[M, K]` array of extended reals with a `[K, N]` one: entry `(p, q)` is the sum over `k` of
    `l (p, k) * r (k, q)`. -/
def rowsTimes {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (⟨(j 0).val, idx2_lt0 j⟩ : Fin M) k) * r (ix2 k (⟨(j 1).val, idx2_lt1 j⟩ : Fin N))

theorem rowsTimes_apply {M K N : ℕ} (l : (⟨2, ![M, K]⟩ : Shape).Idx → EReal) (r : (⟨2, ![K, N]⟩ : Shape).Idx → EReal)
    (p : Fin M) (q : Fin N) : rowsTimes l r (ix2 p q) = ∑ k : Fin K, l (ix2 p k) * r (ix2 k q) := rfl

/-- The plain dimension numbers contract one axis, of extent `K`. -/
theorem plain_contr_rank (M K N : ℕ) : (DotDims.plain M K N).contr.rank = 1 := rfl
theorem plain_contr_size (M K N : ℕ) : (DotDims.plain M K N).contr.size ⟨0, by rw [plain_contr_rank]; exact Nat.one_pos⟩ = K := rfl

/-- The operands' indices at result index `j` and contraction index `q`: rows of the left operand follow the result's
    row, columns of the right operand the result's column, and the contracted axes the contraction coordinate. -/
theorem plain_lhs0 (M K N : ℕ) (j : (⟨2, ![M, N]⟩ : Shape).Idx) (q : (DotDims.plain M K N).contr.Idx) :
    ((DotDims.plain M K N).lhsIdx j q 0).val = (j 0).val := rfl
theorem plain_lhs1 (M K N : ℕ) (j : (⟨2, ![M, N]⟩ : Shape).Idx) (q : (DotDims.plain M K N).contr.Idx) :
    ((DotDims.plain M K N).lhsIdx j q 1).val = (q ⟨0, by rw [plain_contr_rank]; exact Nat.one_pos⟩).val := rfl
theorem plain_rhs0 (M K N : ℕ) (j : (⟨2, ![M, N]⟩ : Shape).Idx) (q : (DotDims.plain M K N).contr.Idx) :
    ((DotDims.plain M K N).rhsIdx j q 0).val = (q ⟨0, by rw [plain_contr_rank]; exact Nat.one_pos⟩).val := rfl
theorem plain_rhs1 (M K N : ℕ) (j : (⟨2, ![M, N]⟩ : Shape).Idx) (q : (DotDims.plain M K N).contr.Idx) :
    ((DotDims.plain M K N).rhsIdx j q 1).val = (j 1).val := rfl

/-- The sum over the contraction index of the operands' products is `rowsTimes`. -/
theorem plain_sum {M K N : ℕ} (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = rowsTimes l r j := by
  unfold rowsTimes
  rw [← Equiv.sum_comp (contrEquiv1 (DotDims.plain M K N) K (plain_contr_rank M K N) (plain_contr_size M K N)).symm]
  refine Finset.sum_congr rfl fun k _ => ?_
  have hk := contrEquiv1_symm_val (DotDims.plain M K N) K (plain_contr_rank M K N) (plain_contr_size M K N) k
  have el : (DotDims.plain M K N).lhsIdx j ((contrEquiv1 (DotDims.plain M K N) K (plain_contr_rank M K N) (plain_contr_size M K N)).symm k)
      = ix2 (⟨(j 0).val, idx2_lt0 j⟩ : Fin M) k := funext fun a => Fin.ext (by
    match a with
    | ⟨0, _⟩ => exact plain_lhs0 M K N j _
    | ⟨1, _⟩ => exact (plain_lhs1 M K N j _).trans hk)
  have er : (DotDims.plain M K N).rhsIdx j ((contrEquiv1 (DotDims.plain M K N) K (plain_contr_rank M K N) (plain_contr_size M K N)).symm k)
      = ix2 k (⟨(j 1).val, idx2_lt1 j⟩ : Fin N) := funext fun a => Fin.ext (by
    match a with
    | ⟨0, _⟩ => exact (plain_rhs0 M K N j _).trans hk
    | ⟨1, _⟩ => exact plain_rhs1 M K N j _)
  rw [el, er]

/-- A matrix-unit product accumulated into the zero splat, over the plain dimension numbers, is `rowsTimes`. -/
theorem matmul_zero_plain {M K N : ℕ} {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = rowsTimes l r :=
  funext fun j => (Ideal.matmul_constant_zero_apply (DotDims.plain M K N) prec l r j).trans (plain_sum l r j)

/-- The host's `dot_general` over the plain dimension numbers is `rowsTimes`, whatever the schedule. -/
theorem dotGeneral_plain {M K N : ℕ} {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = rowsTimes l r :=
  funext fun j => (Ideal.dotGeneral_apply (DotDims.plain M K N) prec sched l r j).trans (plain_sum l r j)

/-- Rows `o, o + 1, …, o + R - 1` of a product are the product of those rows of the left operand: if `lb` is that
    block of rows of `l`, then `rowsTimes lb r` is the same block of rows of `rowsTimes l r`. -/
theorem rowsTimes_rows {M R K N : ℕ} (o : ℕ) (l : (⟨2, ![M, K]⟩ : Shape).Idx → EReal) (lb : (⟨2, ![R, K]⟩ : Shape).Idx → EReal)
    (r : (⟨2, ![K, N]⟩ : Shape).Idx → EReal)
    (hl : ∀ (y : Fin R) (k : Fin K) (h : o + y.val < M), lb (ix2 y k) = l (ix2 (⟨o + y.val, h⟩ : Fin M) k))
    (y : (⟨2, ![R, N]⟩ : Shape).Idx) (i : (⟨2, ![M, N]⟩ : Shape).Idx) (h0 : (i 0).val = o + (y 0).val) (h1 : (i 1).val = (y 1).val) :
    rowsTimes lb r y = rowsTimes l r i := by
  unfold rowsTimes
  refine Finset.sum_congr rfl fun k _ => ?_
  have hM : o + (y 0).val < M := h0 ▸ idx2_lt0 i
  rw [hl ⟨(y 0).val, idx2_lt0 y⟩ k hM]
  have e0 : (⟨o + (y 0).val, hM⟩ : Fin M) = ⟨(i 0).val, idx2_lt0 i⟩ := Fin.ext h0.symm
  have e1 : (⟨(y 1).val, idx2_lt1 y⟩ : Fin N) = ⟨(i 1).val, idx2_lt1 i⟩ := Fin.ext h1.symm
  rw [e0, e1]

end Cert.LibPlainDot

end
-- ==== Proof.LibRowBias.lean ====
/-
  Adding one row to every row of an array, with or without a floor, on the extended reals.

  `rowBias a b` adds the single row `b` (an `[1, N]` array) to every row of the `[M, N]` array `a`;
  `rowBiasFloor z a b` then takes the maximum with `z`, entry by entry. An entry of either depends on the same entry of
  `a` and on its column of `b` only, so a block of rows of the result is the result of that block of rows of `a`
  (`rowBias_rows`, `rowBiasFloor_rows`).
-/
import Idealize.ShloMosaic.PureOps.Ideal
import Idealize.ShloMosaic.Lib.ValueIdx

noncomputable section

namespace Cert.LibRowBias

open Idealize.ShloMosaic Idealize.ShloMosaic.ValueIdx

/-- Every row of `a` plus the one row `b`. -/
def rowBias {M N : ℕ} (a : (⟨2, ![M, N]⟩ : Shape).Idx → EReal) (b : (⟨2, ![1, N]⟩ : Shape).Idx → EReal) :
    (⟨2, ![M, N]⟩ : Shape).Idx → EReal :=
  fun i => a i + b (ix2 (0 : Fin 1) (⟨(i 1).val, idx2_lt1 i⟩ : Fin N))

/-- Every row of `a` plus the one row `b`, floored at `z`. -/
def rowBiasFloor {M N : ℕ} (z : EReal) (a : (⟨2, ![M, N]⟩ : Shape).Idx → EReal) (b : (⟨2, ![1, N]⟩ : Shape).Idx → EReal) :
    (⟨2, ![M, N]⟩ : Shape).Idx → EReal :=
  fun i => max (rowBias a b i) z

theorem rowBias_apply {M N : ℕ} (a : (⟨2, ![M, N]⟩ : Shape).Idx → EReal) (b : (⟨2, ![1, N]⟩ : Shape).Idx → EReal)
    (p : Fin M) (q : Fin N) : rowBias a b (ix2 p q) = a (ix2 p q) + b (ix2 (0 : Fin 1) q) := rfl

theorem rowBiasFloor_apply {M N : ℕ} (z : EReal) (a : (⟨2, ![M, N]⟩ : Shape).Idx → EReal) (b : (⟨2, ![1, N]⟩ : Shape).Idx → EReal)
    (p : Fin M) (q : Fin N) : rowBiasFloor z a b (ix2 p q) = max (a (ix2 p q) + b (ix2 (0 : Fin 1) q)) z := rfl

/-- Rows `o, …, o + R - 1` of `rowBias a b` are `rowBias` of those rows of `a`. -/
theorem rowBias_rows {M R N : ℕ} (o : ℕ) (a : (⟨2, ![M, N]⟩ : Shape).Idx → EReal) (ab : (⟨2, ![R, N]⟩ : Shape).Idx → EReal)
    (b : (⟨2, ![1, N]⟩ : Shape).Idx → EReal)
    (ha : ∀ (p : Fin R) (q : Fin N) (h : o + p.val < M), ab (ix2 p q) = a (ix2 (⟨o + p.val, h⟩ : Fin M) q))
    (y : (⟨2, ![R, N]⟩ : Shape).Idx) (i : (⟨2, ![M, N]⟩ : Shape).Idx) (h0 : (i 0).val = o + (y 0).val) (h1 : (i 1).val = (y 1).val) :
    rowBias ab b y = rowBias a b i := by
  have hM : o + (y 0).val < M := h0 ▸ idx2_lt0 i
  have ey : y = ix2 (⟨(y 0).val, idx2_lt0 y⟩ : Fin R) (⟨(y 1).val, idx2_lt1 y⟩ : Fin N) := by
    funext d; match d with | ⟨0, _⟩ => rfl | ⟨1, _⟩ => rfl
  have ei : i = ix2 (⟨o + (y 0).val, hM⟩ : Fin M) (⟨(y 1).val, idx2_lt1 y⟩ : Fin N) := by
    funext d; match d with | ⟨0, _⟩ => exact Fin.ext h0 | ⟨1, _⟩ => exact Fin.ext h1
  have hab : ab y = a i :=
    (congrArg ab ey).trans ((ha ⟨(y 0).val, idx2_lt0 y⟩ ⟨(y 1).val, idx2_lt1 y⟩ hM).trans (congrArg a ei.symm))
  have hq : (⟨(y 1).val, idx2_lt1 y⟩ : Fin N) = ⟨(i 1).val, idx2_lt1 i⟩ := Fin.ext h1.symm
  unfold rowBias
  rw [hab, hq]

/-- The same with the floor. -/
theorem rowBiasFloor_rows {M R N : ℕ} (z : EReal) (o : ℕ) (a : (⟨2, ![M, N]⟩ : Shape).Idx → EReal) (ab : (⟨2, ![R, N]⟩ : Shape).Idx → EReal)
    (b : (⟨2, ![1, N]⟩ : Shape).Idx → EReal)
    (ha : ∀ (p : Fin R) (q : Fin N) (h : o + p.val < M), ab (ix2 p q) = a (ix2 (⟨o + p.val, h⟩ : Fin M) q))
    (y : (⟨2, ![R, N]⟩ : Shape).Idx) (i : (⟨2, ![M, N]⟩ : Shape).Idx) (h0 : (i 0).val = o + (y 0).val) (h1 : (i 1).val = (y 1).val) :
    rowBiasFloor z ab b y = rowBiasFloor z a b i := by
  unfold rowBiasFloor
  rw [rowBias_rows o a ab b ha y i h0 h1]

end Cert.LibRowBias

end
-- ==== Proof.LibRowBiasHost.lean ====
/-
  The host's spelling of "add one row to every row", read as `rowBias` / `rowBiasFloor`.

  On the host a length-`N` vector is first broadcast to `[1, N]` along axis 1, then to `[M, N]` along both axes, and
  added to an `[M, N]` array; a ReLU then takes the maximum with a broadcast scalar. At entry `(p, q)` both broadcasts
  read the vector at `q`, which is also what the vector RESHAPED to `[1, N]` holds at `(0, q)`: so the host's sum is
  `rowBias` of the array and the reshaped vector, and with the maximum it is `rowBiasFloor` at the scalar's value.
-/
import proofs.«174191_j65481071410281_2_alg».proof.Proof.LibRowBias
import Idealize.ShloMosaic.Lib.Pipeline.Value
import Idealize.ShloMosaic.Lib.ValueLayout

noncomputable section

namespace Cert.LibRowBias

open Idealize.ShloMosaic Idealize.ShloMosaic.ValueIdx

/-- A vector broadcast to one row and then over `M` rows reads, at `(p, q)`, the vector at `q`. -/
theorem bcastRow_apply {α : Type} {M N : ℕ}
    (h1 : (⟨1, ![N]⟩ : Shape).BroadcastsInDim ⟨2, ![1, N]⟩ ![1])
    (h2 : (⟨2, ![1, N]⟩ : Shape).BroadcastsInDim ⟨2, ![M, N]⟩ ![0, 1])
    (x : (⟨1, ![N]⟩ : Shape).Idx → α) (p : Fin M) (q : Fin N) :
    broadcastInDim ⟨2, ![M, N]⟩ ![0, 1] h2 (broadcastInDim ⟨2, ![1, N]⟩ ![1] h1 x) (ix2 p q) = x (ix1 q) := by
  have hq : q.val = if N = 1 then 0 else q.val := by
    split
    · have := q.isLt; omega
    · rfl
  refine (broadcastInDim_apply ![0, 1] h2 (broadcastInDim ⟨2, ![1, N]⟩ ![1] h1 x) (ix2 p q) (ix2 (0 : Fin 1) q) (fun a => ?_)).trans ?_
  · match a with
    | ⟨0, _⟩ => show 0 = if (1 : ℕ) = 1 then 0 else p.val; rw [if_pos rfl]
    | ⟨1, _⟩ => show q.val = if N = 1 then 0 else q.val; exact hq
  · refine broadcastInDim_apply ![1] h1 x (ix2 (0 : Fin 1) q) (ix1 q) (fun a => ?_)
    match a with
    | ⟨0, _⟩ => show q.val = if N = 1 then 0 else q.val; exact hq

/-- The host's sum of an array and a twice-broadcast vector is `rowBias` of the array and the reshaped vector. -/
theorem addf_bcastRow {M N : ℕ} (a : FVec Ideal ⟨2, ![M, N]⟩ .f32) (x : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf a (broadcastInDim ⟨2, ![M, N]⟩ ![0, 1] h2 (broadcastInDim ⟨2, ![1, N]⟩ ![1] h1 x))
      = rowBias (M := M) (N := N) a (shapeCast ⟨2, ![1, N]⟩ x hc) := by
  funext i
  obtain ⟨p, q, rfl⟩ : ∃ (p : Fin M) (q : Fin N), i = ix2 p q :=
    ⟨⟨(i 0).val, idx2_lt0 i⟩, ⟨(i 1).val, idx2_lt1 i⟩, by funext d; match d with | ⟨0, _⟩ => rfl | ⟨1, _⟩ => rfl⟩
  rw [rowBias_apply, shapeCast_a_1a_apply]
  show a (ix2 p q) + broadcastInDim ⟨2, ![M, N]⟩ ![0, 1] h2 (broadcastInDim ⟨2, ![1, N]⟩ ![1] h1 x) (ix2 p q) = _
  rw [bcastRow_apply]

/-- With the ReLU's maximum against a broadcast scalar word `w`: `rowBiasFloor` at the word's value. -/
theorem max_addf_bcastRow {M N : ℕ} (w : BitVec 32) (a : FVec Ideal ⟨2, ![M, N]⟩ .f32) (x : FVec Ideal ⟨1, ![N]⟩ .f32)
    (h0 : (⟨0, ![]⟩ : Shape).BroadcastsInDim ⟨2, ![M, N]⟩ ![])
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    maximumf (addf a (broadcastInDim ⟨2, ![M, N]⟩ ![0, 1] h2 (broadcastInDim ⟨2, ![1, N]⟩ ![1] h1 x)))
        (broadcastInDim ⟨2, ![M, N]⟩ ![] h0 (constant (F := Ideal) ⟨0, ![]⟩ .f32 w))
      = rowBiasFloor (M := M) (N := N) (Ideal.ofBits .f32 w) a (shapeCast ⟨2, ![1, N]⟩ x hc) := by
  rw [addf_bcastRow a x h1 h2 hc]
  rfl

end Cert.LibRowBias

end
-- ==== Proof.LibBodyBias.lean ====
/-
  The kernel bodies' "add the bias row, floor at zero", on the extended reals.

  Inside a kernel body a block of `R` rows `a` (an `[R, N]` array) meets the one-row bias `b` (an `[1, N]` array) as
  `max (a + broadcast b) (splat z)`: the bias is broadcast over the rows, and the floor `z` is a scalar splat. Entry
  `(p, q)` is therefore `max (a (p, q) + b (0, q)) z`: the body's expression is `rowBiasFloor z a b`, the same function
  the host's spelling of the rectified bias denotes.
-/
import proofs.«174191_j65481071410281_2_alg».proof.Proof.LibRowBias
import Idealize.ShloMosaic.Lib.Pipeline.Value

noncomputable section

namespace Cert.LibBodyBias

open Idealize.ShloMosaic Idealize.ShloMosaic.ValueIdx Cert.LibRowBias

/-- A one-row array broadcast over `R` rows reads, at `(p, q)`, the row at `(0, q)`. -/
theorem broadcastRow_apply {α : Type} {R N : ℕ} (b : (⟨2, ![1, N]⟩ : Shape).Idx → α)
    (h : (⟨2, ![1, N]⟩ : Shape).Broadcasts ⟨2, ![R, N]⟩) (p : Fin R) (q : Fin N) :
    broadcastTo ⟨2, ![R, N]⟩ b h (ix2 p q) = b (ix2 (0 : Fin 1) q) := by
  have hq : q.val = if N = 1 then 0 else q.val := by
    split
    · have := q.isLt; omega
    · rfl
  refine broadcastTo_apply b h (ix2 p q) (ix2 (0 : Fin 1) q) (fun a => ?_)
  match a with
  | ⟨0, _⟩ => show 0 = if (1 : ℕ) = 1 then 0 else p.val; rw [if_pos rfl]
  | ⟨1, _⟩ => show q.val = if N = 1 then 0 else q.val; exact hq

/-- The body's rectified bias of a block of rows is `rowBiasFloor` at the splat word's value. -/
theorem max_addf_broadcastRow {R N : ℕ} (w : BitVec 32) (a : FVec Ideal ⟨2, ![R, N]⟩ .f32) (b : FVec Ideal ⟨2, ![1, N]⟩ .f32)
    (ha : (⟨2, ![R, N]⟩ : Shape).ShapeCasts ⟨2, ![R, N]⟩) (hb : (⟨2, ![1, N]⟩ : Shape).ShapeCasts ⟨2, ![1, N]⟩)
    (hbc : (⟨2, ![1, N]⟩ : Shape).Broadcasts ⟨2, ![R, N]⟩) :
    maximumf (addf (shapeCast ⟨2, ![R, N]⟩ a ha) (broadcastTo ⟨2, ![R, N]⟩ (shapeCast ⟨2, ![1, N]⟩ b hb) hbc))
        (broadcast ⟨2, ![R, N]⟩ (Scalar.ofBits (F := Ideal) .f32 w))
      = rowBiasFloor (M := R) (N := N) (Ideal.ofBits .f32 w) a b := by
  rw [shapeCast_self, shapeCast_self]
  funext i
  obtain ⟨p, q, rfl⟩ : ∃ (p : Fin R) (q : Fin N), i = ix2 p q :=
    ⟨⟨(i 0).val, idx2_lt0 i⟩, ⟨(i 1).val, idx2_lt1 i⟩, by funext d; match d with | ⟨0, _⟩ => rfl | ⟨1, _⟩ => rfl⟩
  rw [rowBiasFloor_apply]
  show max (a (ix2 p q) + broadcastTo ⟨2, ![R, N]⟩ b hbc (ix2 p q)) (Ideal.ofBits .f32 w) = _
  rw [broadcastRow_apply]

end Cert.LibBodyBias

end
-- ==== Proof.LibTwoLayer.lean ====
/-
  A two-layer perceptron on the rows of an array, on the extended reals.

  `hidden h wa ba` is the first layer: the rows of `h` times `wa`, plus the one row `ba`, floored at zero.
  `outFloor` and `outPlain` are the second layer on top of it, with and without the floor at zero. An entry of any of
  them depends on its own row of `h` only, so a block of rows of the result is the result of that block of rows.

  Two spellings denote these functions. Inside a kernel body a block meets the weights as a matrix-unit product
  (operands narrowed to bf16, which changes nothing on the extended reals) accumulated into the zero splat, plus the
  one-row bias broadcast over the rows, with a scalar splat as the floor. On the host the product is a `dot_general`,
  the bias a vector broadcast twice, the floor a broadcast scalar.
-/
import proofs.«174191_j65481071410281_2_alg».proof.Proof.LibPlainDot
import proofs.«174191_j65481071410281_2_alg».proof.Proof.LibRowBias
import proofs.«174191_j65481071410281_2_alg».proof.Proof.LibRowBiasHost
import proofs.«174191_j65481071410281_2_alg».proof.Proof.LibBodyBias
import Idealize.ShloMosaic.Lib.Pipeline.Value
import Idealize.ShloMosaic.Lib.ValueIdx

noncomputable section

namespace Cert.Mlp

open Idealize.ShloMosaic Idealize.ShloMosaic.ValueIdx Cert.LibPlainDot Cert.LibRowBias Cert.LibBodyBias

/-- Zero, as the word of the float literal `0.0` reads. -/
abbrev zero : EReal := Ideal.ofBits .f32 0x00000000#32

/-- The entrywise sum of two arrays of one shape. -/
def rowsSum {s : Shape} (a b : s.Idx → EReal) : s.Idx → EReal := fun i => a i + b i

/-- The first layer: rows times weights, plus the bias row, floored at zero. -/
def hidden {M K N : ℕ} (h : (⟨2, ![M, K]⟩ : Shape).Idx → EReal) (wa : (⟨2, ![K, N]⟩ : Shape).Idx → EReal)
    (ba : (⟨2, ![1, N]⟩ : Shape).Idx → EReal) : (⟨2, ![M, N]⟩ : Shape).Idx → EReal :=
  rowBiasFloor zero (rowsTimes h wa) ba

/-- Both layers, the second floored at zero too. -/
def outFloor {M K N P : ℕ} (h : (⟨2, ![M, K]⟩ : Shape).Idx → EReal) (wa : (⟨2, ![K, N]⟩ : Shape).Idx → EReal)
    (ba : (⟨2, ![1, N]⟩ : Shape).Idx → EReal) (wb : (⟨2, ![N, P]⟩ : Shape).Idx → EReal)
    (bb : (⟨2, ![1, P]⟩ : Shape).Idx → EReal) : (⟨2, ![M, P]⟩ : Shape).Idx → EReal :=
  rowBiasFloor zero (rowsTimes (hidden h wa ba) wb) bb

/-- Both layers, the second without a floor. -/
def outPlain {M K N P : ℕ} (h : (⟨2, ![M, K]⟩ : Shape).Idx → EReal) (wa : (⟨2, ![K, N]⟩ : Shape).Idx → EReal)
    (ba : (⟨2, ![1, N]⟩ : Shape).Idx → EReal) (wb : (⟨2, ![N, P]⟩ : Shape).Idx → EReal)
    (bb : (⟨2, ![1, P]⟩ : Shape).Idx → EReal) : (⟨2, ![M, P]⟩ : Shape).Idx → EReal :=
  rowBias (rowsTimes (hidden h wa ba) wb) bb

/-! ## A block of rows -/

/-- Rows `o, …, o + R - 1` of the first layer are the first layer of those rows. -/
theorem hidden_rows {M R K N : ℕ} (o : ℕ) (h : (⟨2, ![M, K]⟩ : Shape).Idx → EReal) (hb : (⟨2, ![R, K]⟩ : Shape).Idx → EReal)
    (wa : (⟨2, ![K, N]⟩ : Shape).Idx → EReal) (ba : (⟨2, ![1, N]⟩ : Shape).Idx → EReal)
    (hh : ∀ (y : Fin R) (k : Fin K) (hlt : o + y.val < M), hb (ix2 y k) = h (ix2 (⟨o + y.val, hlt⟩ : Fin M) k))
    (y : (⟨2, ![R, N]⟩ : Shape).Idx) (i : (⟨2, ![M, N]⟩ : Shape).Idx) (h0 : (i 0).val = o + (y 0).val) (h1 : (i 1).val = (y 1).val) :
    hidden hb wa ba y = hidden h wa ba i :=
  rowBiasFloor_rows zero o (rowsTimes h wa) (rowsTimes hb wa) ba
    (fun p q hlt => rowsTimes_rows o h hb wa hh (ix2 p q) (ix2 (⟨o + p.val, hlt⟩ : Fin M) q) rfl rfl) y i h0 h1

/-- The same for both layers with the floor. -/
theorem outFloor_rows {M R K N P : ℕ} (o : ℕ) (h : (⟨2, ![M, K]⟩ : Shape).Idx → EReal) (hb : (⟨2, ![R, K]⟩ : Shape).Idx → EReal)
    (wa : (⟨2, ![K, N]⟩ : Shape).Idx → EReal) (ba : (⟨2, ![1, N]⟩ : Shape).Idx → EReal)
    (wb : (⟨2, ![N, P]⟩ : Shape).Idx → EReal) (bb : (⟨2, ![1, P]⟩ : Shape).Idx → EReal)
    (hh : ∀ (y : Fin R) (k : Fin K) (hlt : o + y.val < M), hb (ix2 y k) = h (ix2 (⟨o + y.val, hlt⟩ : Fin M) k))
    (y : (⟨2, ![R, P]⟩ : Shape).Idx) (i : (⟨2, ![M, P]⟩ : Shape).Idx) (h0 : (i 0).val = o + (y 0).val) (h1 : (i 1).val = (y 1).val) :
    outFloor hb wa ba wb bb y = outFloor h wa ba wb bb i :=
  rowBiasFloor_rows zero o (rowsTimes (hidden h wa ba) wb) (rowsTimes (hidden hb wa ba) wb) bb
    (fun p q hlt => rowsTimes_rows o (hidden h wa ba) (hidden hb wa ba) wb
      (fun y' k hlt' => hidden_rows o h hb wa ba hh (ix2 y' k) (ix2 (⟨o + y'.val, hlt'⟩ : Fin M) k) rfl rfl)
      (ix2 p q) (ix2 (⟨o + p.val, hlt⟩ : Fin M) q) rfl rfl) y i h0 h1

/-- The same for both layers without the second floor. -/
theorem outPlain_rows {M R K N P : ℕ} (o : ℕ) (h : (⟨2, ![M, K]⟩ : Shape).Idx → EReal) (hb : (⟨2, ![R, K]⟩ : Shape).Idx → EReal)
    (wa : (⟨2, ![K, N]⟩ : Shape).Idx → EReal) (ba : (⟨2, ![1, N]⟩ : Shape).Idx → EReal)
    (wb : (⟨2, ![N, P]⟩ : Shape).Idx → EReal) (bb : (⟨2, ![1, P]⟩ : Shape).Idx → EReal)
    (hh : ∀ (y : Fin R) (k : Fin K) (hlt : o + y.val < M), hb (ix2 y k) = h (ix2 (⟨o + y.val, hlt⟩ : Fin M) k))
    (y : (⟨2, ![R, P]⟩ : Shape).Idx) (i : (⟨2, ![M, P]⟩ : Shape).Idx) (h0 : (i 0).val = o + (y 0).val) (h1 : (i 1).val = (y 1).val) :
    outPlain hb wa ba wb bb y = outPlain h wa ba wb bb i :=
  rowBias_rows o (rowsTimes (hidden h wa ba) wb) (rowsTimes (hidden hb wa ba) wb) bb
    (fun p q hlt => rowsTimes_rows o (hidden h wa ba) (hidden hb wa ba) wb
      (fun y' k hlt' => hidden_rows o h hb wa ba hh (ix2 y' k) (ix2 (⟨o + y'.val, hlt'⟩ : Fin M) k) rfl rfl)
      (ix2 p q) (ix2 (⟨o + p.val, hlt⟩ : Fin M) q) rfl rfl) y i h0 h1

/-! ## The kernel bodies' spelling of one layer -/

/-- A block times the weights on the matrix unit (both narrowed to bf16: the identity here), plus the bias row broadcast
    over the rows, floored at a zero splat: one floored layer. -/
theorem body_layer_floor {R K N : ℕ} (a : FVec Ideal ⟨2, ![R, K]⟩ .f32) (w : FVec Ideal ⟨2, ![K, N]⟩ .f32)
    (b : FVec Ideal ⟨2, ![1, N]⟩ .f32) (d : DotDims ⟨2, ![R, K]⟩ ⟨2, ![K, N]⟩ ⟨2, ![R, N]⟩) (hd : d = DotDims.plain R K N)
    (hlt : FTy.bf16.bits < FTy.f32.bits) (hbc : (⟨2, ![1, N]⟩ : Shape).Broadcasts ⟨2, ![R, N]⟩) :
    maximumf (addf (matmul d none (truncf .bf16 a hlt) (truncf .bf16 w hlt) (constant ⟨2, ![R, N]⟩ .f32 0x00000000#32))
        (broadcastTo ⟨2, ![R, N]⟩ b hbc)) (broadcast ⟨2, ![R, N]⟩ (Scalar.ofBits (F := Ideal) .f32 0x00000000#32))
      = rowBiasFloor zero (rowsTimes a w) b := by
  subst hd
  funext i
  obtain ⟨p, q, rfl⟩ : ∃ (p : Fin R) (q : Fin N), i = ix2 p q :=
    ⟨⟨(i 0).val, idx2_lt0 i⟩, ⟨(i 1).val, idx2_lt1 i⟩, by funext d; match d with | ⟨0, _⟩ => rfl | ⟨1, _⟩ => rfl⟩
  rw [rowBiasFloor_apply]
  show max (FloatOps.matmul (DotDims.plain R K N) none (truncf .bf16 a hlt) (truncf .bf16 w hlt)
      (constant ⟨2, ![R, N]⟩ .f32 0x00000000#32) (ix2 p q) + broadcastTo ⟨2, ![R, N]⟩ b hbc (ix2 p q)) zero = _
  rw [broadcastRow_apply, matmul_zero_plain]
  rfl

/-- The same without the floor. -/
theorem body_layer_plain {R K N : ℕ} (a : FVec Ideal ⟨2, ![R, K]⟩ .f32) (w : FVec Ideal ⟨2, ![K, N]⟩ .f32)
    (b : FVec Ideal ⟨2, ![1, N]⟩ .f32) (d : DotDims ⟨2, ![R, K]⟩ ⟨2, ![K, N]⟩ ⟨2, ![R, N]⟩) (hd : d = DotDims.plain R K N)
    (hlt : FTy.bf16.bits < FTy.f32.bits) (hbc : (⟨2, ![1, N]⟩ : Shape).Broadcasts ⟨2, ![R, N]⟩) :
    addf (matmul d none (truncf .bf16 a hlt) (truncf .bf16 w hlt) (constant ⟨2, ![R, N]⟩ .f32 0x00000000#32))
        (broadcastTo ⟨2, ![R, N]⟩ b hbc)
      = rowBias (rowsTimes a w) b := by
  subst hd
  funext i
  obtain ⟨p, q, rfl⟩ : ∃ (p : Fin R) (q : Fin N), i = ix2 p q :=
    ⟨⟨(i 0).val, idx2_lt0 i⟩, ⟨(i 1).val, idx2_lt1 i⟩, by funext d; match d with | ⟨0, _⟩ => rfl | ⟨1, _⟩ => rfl⟩
  rw [rowBias_apply]
  show FloatOps.matmul (DotDims.plain R K N) none (truncf .bf16 a hlt) (truncf .bf16 w hlt)
      (constant ⟨2, ![R, N]⟩ .f32 0x00000000#32) (ix2 p q) + broadcastTo ⟨2, ![R, N]⟩ b hbc (ix2 p q) = _
  rw [broadcastRow_apply, matmul_zero_plain]
  rfl

/-! ## The host's spelling of one layer -/

/-- A `dot_general`, plus a vector broadcast to a row and then over the rows, floored at a broadcast zero: one floored
    layer, its bias row the vector reshaped to one row. -/
theorem host_layer_floor {M K N : ℕ} (a : FVec Ideal ⟨2, ![M, K]⟩ .f32) (w : FVec Ideal ⟨2, ![K, N]⟩ .f32)
    (x : FVec Ideal ⟨1, ![N]⟩ .f32) (d : DotDims ⟨2, ![M, K]⟩ ⟨2, ![K, N]⟩ ⟨2, ![M, N]⟩) (hd : d = DotDims.plain M K N)
    (h0 : (⟨0, ![]⟩ : Shape).BroadcastsInDim ⟨2, ![M, N]⟩ ![])
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    maximumf (addf (Host.dotGeneral d none a w) (broadcastInDim ⟨2, ![M, N]⟩ ![0, 1] h2 (broadcastInDim ⟨2, ![1, N]⟩ ![1] h1 x)))
        (broadcastInDim ⟨2, ![M, N]⟩ ![] h0 (constant (F := Ideal) ⟨0, ![]⟩ .f32 0x00000000#32))
      = rowBiasFloor zero (rowsTimes a w) (shapeCast ⟨2, ![1, N]⟩ x hc) := by
  subst hd
  rw [max_addf_bcastRow 0x00000000#32 _ x h0 h1 h2 hc]
  show rowBiasFloor zero (FloatOps.dotGeneral (DotDims.plain M K N) none .single a w) _ = _
  rw [dotGeneral_plain]

/-- The same without the floor. -/
theorem host_layer_plain {M K N : ℕ} (a : FVec Ideal ⟨2, ![M, K]⟩ .f32) (w : FVec Ideal ⟨2, ![K, N]⟩ .f32)
    (x : FVec Ideal ⟨1, ![N]⟩ .f32) (d : DotDims ⟨2, ![M, K]⟩ ⟨2, ![K, N]⟩ ⟨2, ![M, N]⟩) (hd : d = DotDims.plain M K N)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf (Host.dotGeneral d none a w) (broadcastInDim ⟨2, ![M, N]⟩ ![0, 1] h2 (broadcastInDim ⟨2, ![1, N]⟩ ![1] h1 x))
      = rowBias (rowsTimes a w) (shapeCast ⟨2, ![1, N]⟩ x hc) := by
  subst hd
  rw [addf_bcastRow _ x h1 h2 hc]
  show rowBias (FloatOps.dotGeneral (DotDims.plain M K N) none .single a w) _ = _
  rw [dotGeneral_plain]

end Cert.Mlp

end
-- ==== Proof.Ffn.lean ====
/-
  The network both programs compute, on the extended reals.

  A token is a row of the `[4, 4096, 1024]` input flattened to `16384` rows: token `n` is `x (n / 4096, n % 4096, ·)`.
  Its features are the cosines of its first eight entries (`feat`). The two weight matrices are stored with the output
  axis first, so the network multiplies by their transposes (`tr`), and each bias vector is added as one row (`row`):

    net (n, e) = ∑ f, max (∑ q, cos (x (n, q)) · W1 (f, q) + b1 f) 0 · W2 (e, f) + b2 e

  which is the two-layer perceptron `Mlp.outPlain` of the feature rows. `G` is `net` read back at the
  three-coordinate index `(b, s, e)`, token `b · 4096 + s`.
-/
import proofs.«174191_j65481071410281_2_alg».proof.Proof.LibTwoLayer
import Idealize.ShloMosaic.PureOps.Ideal
import Idealize.ShloMosaic.Lib.ValueIdx

noncomputable section

namespace Cert.Ffn

open Idealize.ShloMosaic Idealize.ShloMosaic.ValueIdx Cert.LibPlainDot Cert.LibRowBias Cert.Mlp

/-- The cosines of the first eight entries of every token: row `n` reads the input at `(n / 4096, n % 4096, q)`. -/
def feat (x : (⟨3, ![4, 4096, 1024]⟩ : Shape).Idx → EReal) : (⟨2, ![16384, 8]⟩ : Shape).Idx → EReal :=
  fun j => Ideal.cos (x (ix3
    (⟨(j 0).val / 4096, by have h := idx2_lt0 j; omega⟩ : Fin 4)
    (⟨(j 0).val % 4096, Nat.mod_lt _ (by decide)⟩ : Fin 4096)
    (⟨(j 1).val, by have h := idx2_lt1 j; omega⟩ : Fin 1024)))

/-- A matrix with its two axes exchanged. -/
def tr {A B : ℕ} (w : (⟨2, ![A, B]⟩ : Shape).Idx → EReal) : (⟨2, ![B, A]⟩ : Shape).Idx → EReal :=
  fun j => w (ix2 (⟨(j 1).val, idx2_lt1 j⟩ : Fin A) (⟨(j 0).val, idx2_lt0 j⟩ : Fin B))

/-- A vector as an array of one row. -/
def row {N : ℕ} (b : (⟨1, ![N]⟩ : Shape).Idx → EReal) : (⟨2, ![1, N]⟩ : Shape).Idx → EReal :=
  fun j => b (ix1 (⟨(j 1).val, idx2_lt1 j⟩ : Fin N))

theorem tr_apply {A B : ℕ} (w : (⟨2, ![A, B]⟩ : Shape).Idx → EReal) (p : Fin B) (q : Fin A) :
    tr w (ix2 p q) = w (ix2 q p) := rfl

theorem row_apply {N : ℕ} (b : (⟨1, ![N]⟩ : Shape).Idx → EReal) (u : Fin 1) (q : Fin N) :
    row b (ix2 u q) = b (ix1 q) := rfl

/-- The network on feature rows `a`: the two-layer perceptron with the transposed weights and the bias rows. -/
def netOf (a : (⟨2, ![16384, 8]⟩ : Shape).Idx → EReal) (wa : (⟨2, ![8, 4096]⟩ : Shape).Idx → EReal)
    (ba : (⟨2, ![1, 4096]⟩ : Shape).Idx → EReal) (wb : (⟨2, ![4096, 1024]⟩ : Shape).Idx → EReal)
    (bb : (⟨2, ![1, 1024]⟩ : Shape).Idx → EReal) : (⟨2, ![16384, 1024]⟩ : Shape).Idx → EReal :=
  outPlain a wa ba wb bb

/-- The network on the flattened tokens. -/
def net (x : (⟨3, ![4, 4096, 1024]⟩ : Shape).Idx → EReal) (W1 : (⟨2, ![4096, 8]⟩ : Shape).Idx → EReal)
    (b1 : (⟨1, ![4096]⟩ : Shape).Idx → EReal) (W2 : (⟨2, ![1024, 4096]⟩ : Shape).Idx → EReal)
    (b2 : (⟨1, ![1024]⟩ : Shape).Idx → EReal) : (⟨2, ![16384, 1024]⟩ : Shape).Idx → EReal :=
  netOf (feat x) (tr W1) (row b1) (tr W2) (row b2)

/-- The result array: entry `(b, s, e)` is the network's output `e` for token `b · 4096 + s`. -/
def G (x : (⟨3, ![4, 4096, 1024]⟩ : Shape).Idx → EReal) (W1 : (⟨2, ![4096, 8]⟩ : Shape).Idx → EReal)
    (b1 : (⟨1, ![4096]⟩ : Shape).Idx → EReal) (W2 : (⟨2, ![1024, 4096]⟩ : Shape).Idx → EReal)
    (b2 : (⟨1, ![1024]⟩ : Shape).Idx → EReal) : (⟨3, ![4, 4096, 1024]⟩ : Shape).Idx → EReal :=
  fun i => net x W1 b1 W2 b2 (ix2
    (⟨(i 0).val * 4096 + (i 1).val, by
      have h0 : (i 0).val < 4 := (i 0).isLt
      have h1 : (i 1).val < 4096 := (i 1).isLt
      omega⟩ : Fin 16384)
    (⟨(i 2).val, (i 2).isLt⟩ : Fin 1024))

/-- Token `b · 4096 + s`'s features are the cosines of `x (b, s, q)`. -/
theorem feat_apply (x : (⟨3, ![4, 4096, 1024]⟩ : Shape).Idx → EReal) (b : Fin 4) (s : Fin 4096) (q : Fin 8)
    (h : b.val * 4096 + s.val < 16384) :
    feat x (ix2 (⟨b.val * 4096 + s.val, h⟩ : Fin 16384) q)
      = Ideal.cos (x (ix3 b s (⟨q.val, by have := q.isLt; omega⟩ : Fin 1024))) := by
  unfold feat
  refine congrArg (fun k => Ideal.cos (x k)) (funext fun a => Fin.ext ?_)
  have hb := b.isLt
  have hs := s.isLt
  match a with
  | ⟨0, _⟩ => show (b.val * 4096 + s.val) / 4096 = b.val; omega
  | ⟨1, _⟩ => show (b.val * 4096 + s.val) % 4096 = s.val; omega
  | ⟨2, _⟩ => rfl

/-- `G` at `(b, s, e)`, written out: the inner sum over the eight features, the bias, the floor at zero, the outer sum
    over the 4096 hidden units, the second bias. -/
theorem G_apply (x : (⟨3, ![4, 4096, 1024]⟩ : Shape).Idx → EReal) (W1 : (⟨2, ![4096, 8]⟩ : Shape).Idx → EReal)
    (b1 : (⟨1, ![4096]⟩ : Shape).Idx → EReal) (W2 : (⟨2, ![1024, 4096]⟩ : Shape).Idx → EReal)
    (b2 : (⟨1, ![1024]⟩ : Shape).Idx → EReal) (b : Fin 4) (s : Fin 4096) (e : Fin 1024) :
    G x W1 b1 W2 b2 (ix3 b s e)
      = (∑ f : Fin 4096, max ((∑ q : Fin 8, Ideal.cos (x (ix3 b s (⟨q.val, by have := q.isLt; omega⟩ : Fin 1024))) * W1 (ix2 f q))
            + b1 (ix1 f)) zero * W2 (ix2 e f)) + b2 (ix1 e) := by
  have h : b.val * 4096 + s.val < 16384 := by have hb := b.isLt; have hs := s.isLt; omega
  show outPlain (feat x) (tr W1) (row b1) (tr W2) (row b2) (ix2 (⟨b.val * 4096 + s.val, h⟩ : Fin 16384) e) = _
  unfold outPlain
  rw [rowBias_apply, rowsTimes_apply, row_apply]
  refine congrArg (· + b2 (ix1 e)) (Finset.sum_congr rfl fun f _ => ?_)
  rw [tr_apply]
  refine congrArg (· * W2 (ix2 e f)) ?_
  unfold Mlp.hidden
  rw [rowBiasFloor_apply, rowsTimes_apply, row_apply]
  refine congrArg (fun z => max (z + b1 (ix1 f)) zero) (Finset.sum_congr rfl fun q _ => ?_)
  rw [tr_apply, feat_apply x b s q h]

end Cert.Ffn

end
-- ==== Proof.Body.lean ====
/-
  What the kernel body leaves in a block of the output, on the extended reals.

  The body takes the cosines of its 512 token rows (eight entries each), multiplies them on the matrix unit with the
  `[8, 4096]` weights into a zero accumulator, adds the first bias row, floors at zero, multiplies with the
  `[4096, 1024]` weights into a zero accumulator and adds the second bias row. Narrowing an operand to bf16 changes
  nothing on the extended reals, so the stored block is the two-layer perceptron `Mlp.outPlain` of the block's cosines.
  An entry of it depends on its own token row only, hence a block of rows of the network is the network of that block of
  rows (`block_net`).
-/
import proofs.«174191_j65481071410281_2_alg».proof.Proof.Gen.KernelIdeal.Skeleton
import proofs.«174191_j65481071410281_2_alg».proof.Proof.Ffn
import Idealize.ShloMosaic.Lib.Pipeline.Value

noncomputable section

namespace Cert.KernelIdeal.Body

open Cert.KernelIdeal Cert.KernelIdeal.Gen Idealize.ShloMosaic Idealize.SL.Sem Idealize.ShloMosaic.ValueIdx
open Cert.LibPlainDot Cert.LibRowBias Cert.Mlp Cert.Ffn

/-- Both products contract the left operand's second axis with the right operand's first, with no batch axis. -/
theorem d1_plain : dot_S512x8_S8x4096_S512x4096_1_0_0_1_n_n = DotDims.plain 512 8 4096 := rfl
theorem d2_plain : dot_S512x4096_S4096x1024_S512x1024_1_0_0_1_n_n = DotDims.plain 512 4096 1024 := rfl

/-- The cosines of an array's entries. -/
def cosOf {s : Shape} (v : s.Idx → EReal) : s.Idx → EReal := fun j => Ideal.cos (v j)

/-- The stored block is the two-layer perceptron of the cosines of the loaded token rows. -/
theorem pay_eq (v0 : FVec Ideal S512x8 .f32) (v4 : FVec Ideal S8x4096 .bf16) (v7 : FVec Ideal S1x4096 .f32)
    (v14 : FVec Ideal S4096x1024 .bf16) (v17 : FVec Ideal S1x1024 .f32) :
    k0_pay1 (F := Ideal) v0 v4 v7 v14 v17 = outPlain (cosOf v0) v4 v7 v14 v17 := by
  have e1 : maximumf (addf (matmul dot_S512x8_S8x4096_S512x4096_1_0_0_1_n_n none (truncf .bf16 (cos v0) bitsLt_bf16_f32) v4
        (constant S512x4096 .f32 0x00000000#32)) (broadcastTo S512x4096 v7 broadcasts_S1x4096_S512x4096))
        (broadcast S512x4096 (Scalar.ofBits (F := Ideal) .f32 0x00000000#32))
      = Mlp.hidden (cosOf v0) v4 v7 :=
    body_layer_floor (cosOf v0) v4 v7 _ d1_plain bitsLt_bf16_f32 broadcasts_S1x4096_S512x4096
  have e2 : ∀ h : FVec Ideal S512x4096 .f32,
      addf (matmul dot_S512x4096_S4096x1024_S512x1024_1_0_0_1_n_n none (truncf .bf16 h bitsLt_bf16_f32) v14
        (constant S512x1024 .f32 0x00000000#32)) (broadcastTo S512x1024 v17 broadcasts_S1x1024_S512x1024)
      = rowBias (rowsTimes h v14) v17 :=
    fun h => body_layer_plain h v14 v17 _ d2_plain bitsLt_bf16_f32 broadcasts_S1x1024_S512x1024
  unfold k0_pay1
  dsimp only
  rw [shapeCast_self v0, shapeCast_self v4, shapeCast_self v7, shapeCast_self v14, shapeCast_self v17, e1]
  exact e2 _

/-- Rows `o, …, o + 511` of the network on feature rows `a` are what the body stores for the block holding those rows:
    if the loaded token block `x0` is rows `o …` of an array whose cosines are `a`, and the other loads are the whole
    weight and bias arrays, then entry `y` of the stored block is entry `i` of the network, `i` being `y` moved down
    `o` rows. -/
theorem block_net (o : ℕ) (A0 : (⟨2, ![16384, 8]⟩ : Shape).Idx → EReal) (wa : (⟨2, ![8, 4096]⟩ : Shape).Idx → EReal)
    (ba : (⟨2, ![1, 4096]⟩ : Shape).Idx → EReal) (wb : (⟨2, ![4096, 1024]⟩ : Shape).Idx → EReal)
    (bb : (⟨2, ![1, 1024]⟩ : Shape).Idx → EReal)
    (x0 : FVec Ideal S512x8 .f32) (x1 : FVec Ideal S8x4096 .bf16) (x2 : FVec Ideal S1x4096 .f32)
    (x3 : FVec Ideal S4096x1024 .bf16) (x4 : FVec Ideal S1x1024 .f32)
    (h0 : ∀ (y : Fin 512) (k : Fin 8) (hlt : o + y.val < 16384), x0 (ix2 y k) = A0 (ix2 (⟨o + y.val, hlt⟩ : Fin 16384) k))
    (h1 : x1 = wa) (h2 : x2 = ba) (h3 : x3 = wb) (h4 : x4 = bb)
    (y : (⟨2, ![512, 1024]⟩ : Shape).Idx) (i : (⟨2, ![16384, 1024]⟩ : Shape).Idx)
    (hi0 : (i 0).val = o + (y 0).val) (hi1 : (i 1).val = (y 1).val) :
    k0_pay1 (F := Ideal) x0 x1 x2 x3 x4 y = netOf (cosOf A0) wa ba wb bb i := by
  subst h1 h2 h3 h4
  rw [pay_eq]
  exact outPlain_rows o (cosOf A0) (cosOf x0) x1 x2 x3 x4
    (fun y' k hlt => congrArg Ideal.cos (h0 y' k hlt)) y i hi0 hi1

end Cert.KernelIdeal.Body

end
-- ==== Proof.Blocks.lean ====
/-
  The array the region leaves, as one function of the arrays it finds.

  Grid point `t` stages rows `512 t, …, 512 t + 511` of the token array and the whole of each weight and bias array, and
  writes back rows `512 t …` of the output. What it writes is the network's rows `512 t …` (`Body.block_net`), and the 32
  row blocks cover the 16384 rows (row `r` is in block `r / 512`), so the output array ends as the network of the arrays
  as the region finds them.
-/
import proofs.«174191_j65481071410281_2_alg».proof.Proof.Gen.KernelIdeal.Frame
import proofs.«174191_j65481071410281_2_alg».proof.Proof.Body
import Idealize.ShloMosaic.Lib.Pipeline.Value

set_option maxRecDepth 16384

noncomputable section

namespace Cert.KernelIdeal.Region

open Cert.KernelIdeal Cert.KernelIdeal.Gen Idealize.ShloMosaic Idealize.ShloMosaic.TcCoe Idealize.SL.Sem
open Idealize.ShloMosaic.ValueIdx
open Idealize.ShloMosaic.Pipeline (Dat)
open Cert.Ffn Cert.KernelIdeal.Body

variable (m : (ℓ : Loc nD τ sig) → Buf (Elt Ideal) ℓ)

theorem origin : (![0, 0] : Fin 2 → Nat) = fun _ => 0 := funext fun a => by fin_cases a <;> rfl

/-- The windows' block indices at point `t`: the token window and the output window are on row block `t`, the weight
    and bias windows on their one block. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The first weight window's block is the whole array. -/
theorem whole1 (c : Dev nD) (t : Fin cfg0.N) :
    (iblk m c 1 t : FVec Ideal S8x4096 .bf16) = (V m c main_v3 : FVec Ideal S8x4096 .bf16) := by
  obtain ⟨-, -, e0, e1, -⟩ := index_facts t
  funext y
  show V m c main_v3 (((cfg0.win 1).blk t).view.emb y) = V m c main_v3 y
  refine congrArg (V m c main_v3) (funext fun a => Fin.ext ?_)
  match a with
  | ⟨0, _⟩ => show win0_1.index t (0 : Fin 2) * 8 + 1 * (y 0).val = (y 0).val; omega
  | ⟨1, _⟩ => show win0_1.index t (1 : Fin 2) * 4096 + 1 * (y 1).val = (y 1).val; omega

/-- The first bias window's block is the whole row. -/
theorem whole2 (c : Dev nD) (t : Fin cfg0.N) :
    (iblk m c 2 t : FVec Ideal S1x4096 .f32) = (V m c main_v6 : FVec Ideal S1x4096 .f32) := by
  obtain ⟨-, -, -, -, e0, e1, -⟩ := index_facts t
  funext y
  show V m c main_v6 (((cfg0.win 2).blk t).view.emb y) = V m c main_v6 y
  refine congrArg (V m c main_v6) (funext fun a => Fin.ext ?_)
  match a with
  | ⟨0, _⟩ => show win0_2.index t (0 : Fin 2) * 1 + 1 * (y 0).val = (y 0).val; omega
  | ⟨1, _⟩ => show win0_2.index t (1 : Fin 2) * 4096 + 1 * (y 1).val = (y 1).val; omega

/-- The second weight window's block is the whole array. -/
theorem whole3 (c : Dev nD) (t : Fin cfg0.N) :
    (iblk m c 3 t : FVec Ideal S4096x1024 .bf16) = (V m c main_v5 : FVec Ideal S4096x1024 .bf16) := by
  obtain ⟨-, -, -, -, -, -, e0, e1, -⟩ := index_facts t
  funext y
  show V m c main_v5 (((cfg0.win 3).blk t).view.emb y) = V m c main_v5 y
  refine congrArg (V m c main_v5) (funext fun a => Fin.ext ?_)
  match a with
  | ⟨0, _⟩ => show win0_3.index t (0 : Fin 2) * 4096 + 1 * (y 0).val = (y 0).val; omega
  | ⟨1, _⟩ => show win0_3.index t (1 : Fin 2) * 1024 + 1 * (y 1).val = (y 1).val; omega

/-- The second bias window's block is the whole row. -/
theorem whole4 (c : Dev nD) (t : Fin cfg0.N) :
    (iblk m c 4 t : FVec Ideal S1x1024 .f32) = (V m c main_v7 : FVec Ideal S1x1024 .f32) := by
  obtain ⟨-, -, -, -, -, -, -, -, e0, e1, -⟩ := index_facts t
  funext y
  show V m c main_v7 (((cfg0.win 4).blk t).view.emb y) = V m c main_v7 y
  refine congrArg (V m c main_v7) (funext fun a => Fin.ext ?_)
  match a with
  | ⟨0, _⟩ => show win0_4.index t (0 : Fin 2) * 1 + 1 * (y 0).val = (y 0).val; omega
  | ⟨1, _⟩ => show win0_4.index t (1 : Fin 2) * 1024 + 1 * (y 1).val = (y 1).val; omega

/-- The network of the arrays as the region finds them. -/
abbrev found (c : Dev nD) : FVec Ideal S16384x1024 .f32 :=
  netOf (cosOf (V m c main_v1)) (V m c main_v3) (V m c main_v6) (V m c main_v5) (V m c main_v7)

/-- What point `t` writes back is block `t` of that network. -/
theorem flushed_eq (c : Dev nD) (t : Fin cfg0.N) :
    (dats m 0 c).flushed 5 t = ((cfg0.win 5).blk t).view.read (Elt Ideal) (found m c) := by
  show (cfg0.win 5).cut (grid0.coords t) ((dats m 0 c).after 5 t) = _
  rw [after0_5]
  unfold out0_5
  rw [View.canon_unit_zero origin]
  simp only [View.ld_unit_zero (S := S512x8) origin, View.ld_unit_zero (S := S8x4096) origin,
    View.ld_unit_zero (S := S1x4096) origin, View.ld_unit_zero (S := S4096x1024) origin,
    View.ld_unit_zero (S := S1x1024) origin]
  obtain ⟨e00, e01, -, -, -, -, -, -, -, -, e50, e51⟩ := index_facts t
  funext j
  show k0_pay1 (F := Ideal) (iblk m c 0 t) (iblk m c 1 t) (iblk m c 2 t) (iblk m c 3 t) (iblk m c 4 t) j
    = found m c (((cfg0.win 5).blk t).view.emb j)
  refine block_net (512 * t.val) (V m c main_v1) (V m c main_v3) (V m c main_v6) (V m c main_v5) (V m c main_v7)
    (iblk m c 0 t) (iblk m c 1 t) (iblk m c 2 t) (iblk m c 3 t) (iblk m c 4 t) ?_
    (whole1 m c t) (whole2 m c t) (whole3 m c t) (whole4 m c t) j (((cfg0.win 5).blk t).view.emb j) ?_ ?_
  · intro y k hlt
    show V m c main_v1 (((cfg0.win 0).blk t).view.emb (ix2 y k)) = V m c main_v1 (ix2 (⟨512 * t.val + y.val, hlt⟩ : Fin 16384) k)
    refine congrArg (V m c main_v1) (funext fun a => Fin.ext ?_)
    match a with
    | ⟨0, _⟩ => show win0_0.index t (0 : Fin 2) * 512 + 1 * y.val = 512 * t.val + y.val; omega
    | ⟨1, _⟩ => show win0_0.index t (1 : Fin 2) * 8 + 1 * k.val = k.val; omega
  · show win0_5.index t (0 : Fin 2) * 512 + 1 * (j 0).val = 512 * t.val + (j 0).val; omega
  · show win0_5.index t (1 : Fin 2) * 1024 + 1 * (j 1).val = (j 1).val; omega

/-- An index of the output array is in point `t`'s block iff each coordinate is in the block's range on its axis. -/
theorem mem_blk (t : Fin cfg0.N) (i : S16384x1024.Idx) :
    i ∈ ((cfg0.win 5).blk t).view.set ↔ ∀ a : Fin 2, win0_5.index t a * S512x1024.size a ≤ (i a).val
      ∧ (i a).val < win0_5.index t a * S512x1024.size a + S512x1024.size a := by
  show i ∈ ((View.whole main_v8).slice (win0_5.rect t)).set ↔ _
  rw [View.set_slice_whole, Rect.mem_set_unit]
  exact Iff.rfl

/-- Every index of the output array is in some point's block: row `r` in block `r / 512`. -/
theorem cover (i : S16384x1024.Idx) :
    ∃ t : Fin cfg0.N, (cfg0.win 5).flush t = true ∧ i ∈ ((cfg0.win 5).blk t).view.set := by
  have hi0 : (i 0).val < 16384 := (i 0).isLt
  have hi1 : (i 1).val < 1024 := (i 1).isLt
  obtain ⟨t, ht⟩ : ∃ t : Fin cfg0.N, t.val = (i 0).val / 512 :=
    ⟨⟨(i 0).val / 512, by have hN : cfg0.N = 32 := N_0; omega⟩, rfl⟩
  obtain ⟨-, -, -, -, -, -, -, -, -, -, e50, e51⟩ := index_facts t
  refine ⟨t, flush0_5 t, ?_⟩
  rw [mem_blk]
  intro a
  match a with
  | ⟨0, _⟩ =>
    show win0_5.index t (0 : Fin 2) * 512 ≤ (i 0).val ∧ (i 0).val < win0_5.index t (0 : Fin 2) * 512 + 512
    omega
  | ⟨1, _⟩ =>
    show win0_5.index t (1 : Fin 2) * 1024 ≤ (i 1).val ∧ (i 1).val < win0_5.index t (1 : Fin 2) * 1024 + 1024
    omega

/-- The output array after the region is the network of the arrays the region finds. -/
theorem region_out (c : Dev nD) : (dats m 0 c).arrAt 5 cfg0.N = found m c :=
  (dats m 0 c).arrAt_eq_of_cover 5 (found m c) (fun t _ => flushed_eq m c t) cover

end Cert.KernelIdeal.Region

end
-- ==== Proof.Host.lean ====
/-
  The host operations around the region, and the kernel program's result.

  Before the region the program flattens the input to `16384` token rows and keeps their first eight entries, transposes
  the two weight matrices (narrowing them to bf16, which changes nothing on the extended reals) and reshapes each bias
  vector to one row. Read at an index these are the token features before the cosine, `Ffn.tr` of a weight matrix and
  `Ffn.row` of a bias vector, so the network of the arrays the region finds is `Ffn.net` of the arguments. After the
  region the `[16384, 1024]` output is reshaped to `[4, 4096, 1024]`: entry `(b, s, e)` is row `b · 4096 + s`, column
  `e`, which is `Ffn.G`.
-/
import proofs.«174191_j65481071410281_2_alg».proof.Proof.Gen.KernelIdeal.Frame
import proofs.«174191_j65481071410281_2_alg».proof.Proof.Blocks
import Idealize.ShloMosaic.Lib.Pipeline.Value
import Idealize.ShloMosaic.Lib.ValueLayout
import Idealize.ShloMosaic.Lib.StableHlo.Run

set_option maxRecDepth 16384

noncomputable section

namespace Cert.KernelIdeal.HostSide

open Cert.KernelIdeal Cert.KernelIdeal.Gen Idealize.ShloMosaic Idealize.ShloMosaic.TcCoe Idealize.SL.Sem
open Idealize.ShloMosaic.ValueIdx Idealize.ShloMosaic.StableHlo
open Cert.Ffn Cert.KernelIdeal.Body Cert.KernelIdeal.Region

variable (m : (ℓ : Loc nD τ sig) → Buf (Elt Ideal) ℓ) (ρ : Dev nD → PrngReg)

/-- The cosines of the token rows the region finds are the features of the input: row `n`, entry `q` of the flattened
    and sliced input is the input at `(n / 4096, n % 4096, q)`. -/
theorem tokens (c : Dev nD) :
    cosOf (V m c main_v1 : FVec Ideal S16384x8 .f32) = feat (m ((c : Thread nD τ).loc main_arg0)) := by
  have e : (V m c main_v1 : FVec Ideal S16384x8 .f32)
      = extractStridedSlice S16384x8 ![0, 0]
          (shapeCast S16384x1024 (m ((c : Thread nD τ).loc main_arg0)) shapeCasts_S4x4096x1024_S16384x1024)
          slices_S16384x1024_S16384x8_0_0 := by
    show StableHlo.after hostOps0 (fun b => m (c, b)) (Proc.devRef .tc main_v1) = _
    after_results
    rfl
  funext j
  unfold cosOf feat
  rw [e]
  refine congrArg Ideal.cos ?_
  have hj0 := idx2_lt0 j
  have hj1 := idx2_lt1 j
  refine (extractStridedSlice_apply ![0, 0] _ slices_S16384x1024_S16384x8_0_0 j
    (ix2 (⟨(j 0).val, hj0⟩ : Fin 16384) (⟨(j 1).val, by omega⟩ : Fin 1024)) (fun a => ?_)).trans ?_
  · match a with
    | ⟨0, _⟩ => show (j 0).val = 0 + (j 0).val; omega
    | ⟨1, _⟩ => show (j 1).val = 0 + (j 1).val; omega
  · refine shapeCast_apply _ shapeCasts_S4x4096x1024_S16384x1024 _ _ ?_
    rw [Shape.rowMajor_val_three, Shape.rowMajor_val_two]
    show ((j 0).val / 4096 * 4096 + (j 0).val % 4096) * 1024 + (j 1).val = (j 0).val * 1024 + (j 1).val
    omega

/-- The first weight array the region finds is the first weight matrix transposed. -/
theorem weights1 (c : Dev nD) :
    (V m c main_v3 : FVec Ideal S8x4096 .bf16) = tr (m ((c : Thread nD τ).loc main_arg1)) := by
  have e : (V m c main_v3 : FVec Ideal S8x4096 .bf16)
      = (truncf (F := Ideal) .bf16 (transpose S8x4096 [1, 0] (m ((c : Thread nD τ).loc main_arg1)) transposes_S4096x8_S8x4096_1_0)
          bitsLt_bf16_f32 : FVec Ideal S8x4096 .bf16) := by
    show StableHlo.after hostOps0 (fun b => m (c, b)) (Proc.devRef .tc main_v3) = _
    after_results
  rw [e]
  funext j
  show transpose S8x4096 [1, 0] (m ((c : Thread nD τ).loc main_arg1)) transposes_S4096x8_S8x4096_1_0 j = _
  unfold tr
  refine transpose_apply [1, 0] _ transposes_S4096x8_S8x4096_1_0 j _ (fun b => ?_)
  match b with
  | ⟨0, _⟩ => rfl
  | ⟨1, _⟩ => rfl

/-- The second weight array the region finds is the second weight matrix transposed. -/
theorem weights2 (c : Dev nD) :
    (V m c main_v5 : FVec Ideal S4096x1024 .bf16) = tr (m ((c : Thread nD τ).loc main_arg3)) := by
  have e : (V m c main_v5 : FVec Ideal S4096x1024 .bf16)
      = (truncf (F := Ideal) .bf16 (transpose S4096x1024 [1, 0] (m ((c : Thread nD τ).loc main_arg3)) transposes_S1024x4096_S4096x1024_1_0)
          bitsLt_bf16_f32 : FVec Ideal S4096x1024 .bf16) := by
    show StableHlo.after hostOps0 (fun b => m (c, b)) (Proc.devRef .tc main_v5) = _
    after_results
  rw [e]
  funext j
  show transpose S4096x1024 [1, 0] (m ((c : Thread nD τ).loc main_arg3)) transposes_S1024x4096_S4096x1024_1_0 j = _
  unfold tr
  refine transpose_apply [1, 0] _ transposes_S1024x4096_S4096x1024_1_0 j _ (fun b => ?_)
  match b with
  | ⟨0, _⟩ => rfl
  | ⟨1, _⟩ => rfl

/-- The first bias array the region finds is the first bias vector as one row. -/
theorem bias1 (c : Dev nD) :
    (V m c main_v6 : FVec Ideal S1x4096 .f32) = row (m ((c : Thread nD τ).loc main_arg2)) := by
  have e : (V m c main_v6 : FVec Ideal S1x4096 .f32)
      = shapeCast S1x4096 (m ((c : Thread nD τ).loc main_arg2)) shapeCasts_S4096_S1x4096 := by
    show StableHlo.after hostOps0 (fun b => m (c, b)) (Proc.devRef .tc main_v6) = _
    after_results
    rfl
  rw [e]
  funext j
  obtain ⟨u, q, rfl⟩ : ∃ (u : Fin 1) (q : Fin 4096), j = ix2 u q := ⟨j 0, j 1, eq_ix2 j⟩
  rw [row_apply]
  exact shapeCast_a_1a_apply _ shapeCasts_S4096_S1x4096 u q

/-- The second bias array the region finds is the second bias vector as one row. -/
theorem bias2 (c : Dev nD) :
    (V m c main_v7 : FVec Ideal S1x1024 .f32) = row (m ((c : Thread nD τ).loc main_arg4)) := by
  have e : (V m c main_v7 : FVec Ideal S1x1024 .f32)
      = shapeCast S1x1024 (m ((c : Thread nD τ).loc main_arg4)) shapeCasts_S1024_S1x1024 := by
    show StableHlo.after hostOps0 (fun b => m (c, b)) (Proc.devRef .tc main_v7) = _
    after_results
    rfl
  rw [e]
  funext j
  obtain ⟨u, q, rfl⟩ : ∃ (u : Fin 1) (q : Fin 1024), j = ix2 u q := ⟨j 0, j 1, eq_ix2 j⟩
  rw [row_apply]
  exact shapeCast_a_1a_apply _ shapeCasts_S1024_S1x1024 u q

/-- The network of the arrays the region finds is the network of the arguments. -/
theorem found_eq (c : Dev nD) :
    found m c = net (m ((c : Thread nD τ).loc main_arg0)) (m ((c : Thread nD τ).loc main_arg1))
      (m ((c : Thread nD τ).loc main_arg2)) (m ((c : Thread nD τ).loc main_arg3)) (m ((c : Thread nD τ).loc main_arg4)) := by
  show netOf (cosOf (V m c main_v1)) (V m c main_v3) (V m c main_v6) (V m c main_v5) (V m c main_v7) = netOf _ _ _ _ _
  rw [tokens m c, weights1 m c, bias1 m c, weights2 m c, bias2 m c]

/-- The program's result: the region's output reshaped to three axes is `G` of the arguments. -/
theorem result (c : Dev nD) :
    (Pipeline.afterTail₀ cfgs (dats m) 0 (V0 m) [hostOps1] c main_v9 : FVec Ideal S4x4096x1024 .f32)
      = G (m ((c : Thread nD τ).loc main_arg0)) (m ((c : Thread nD τ).loc main_arg1))
          (m ((c : Thread nD τ).loc main_arg2)) (m ((c : Thread nD τ).loc main_arg3)) (m ((c : Thread nD τ).loc main_arg4)) := by
  have e : (Pipeline.afterTail₀ cfgs (dats m) 0 (V0 m) [hostOps1] c main_v9 : FVec Ideal S4x4096x1024 .f32)
      = shapeCast S4x4096x1024
          (Pipeline.withArrays (cfgs 0).spec c (V0 m c) (fun w => (dats m 0 c).arrAt w (cfgs 0).N) (Proc.devRef .tc main_v8))
          shapeCasts_S16384x1024_S4x4096x1024 := by
    unfold Pipeline.afterTail₀
    show StableHlo.after hostOps1 _ (Proc.devRef .tc main_v9) = _
    after_results
    rfl
  have ea : Pipeline.withArrays (cfgs 0).spec c (V0 m c) (fun w => (dats m 0 c).arrAt w (cfgs 0).N) (Proc.devRef .tc main_v8)
      = net (m ((c : Thread nD τ).loc main_arg0)) (m ((c : Thread nD τ).loc main_arg1))
          (m ((c : Thread nD τ).loc main_arg2)) (m ((c : Thread nD τ).loc main_arg3)) (m ((c : Thread nD τ).loc main_arg4)) :=
    (Pipeline.withArrays_arr spec0 launch0.win.arr_inj c _ _ 5).trans ((region_out m c).trans (found_eq m c))
  rw [e, ea]
  funext i
  unfold G
  refine shapeCast_apply _ shapeCasts_S16384x1024_S4x4096x1024 i _ ?_
  rw [Shape.rowMajor_val_two, Shape.rowMajor_val_three]
  rfl

/-- The kernel program's run with its result named: every weakly fair execution terminates with the result array at `G`
    of the arguments and the arguments unchanged. -/
theorem run : θ_run defs (onTc (τ := τ) (main (F := Ideal))) ⟨m, fun _ => 0, ρ⟩ (fun r => ∀ c : Dev nD,
      r.2.mem ((c.tc : Thread nD τ).loc main_v9)
        = G (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v9 (Pipeline.mem_restRefs_of main_v9 (by decide) (by decide))).trans (result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.HostSide

end
-- ==== Proof.Ref.lean ====
/-
  The reference's result is the network `G`.

  Read at `(b, s, e)`, the reference's last stage is its second contraction, over the 4096 hidden units, plus the second
  bias; each hidden unit is the maximum with zero of the first contraction, over the eight cosines of token `(b, s)`, plus
  the first bias. Every layout operation on the way (the slice of the first eight entries, the two broadcasts of each bias
  vector, the broadcast of the scalar zero) reads its operand at an index computed from the coordinates, and those indices
  are the ones `G` is written with.
-/
import proofs.«174191_j65481071410281_2_alg».proof.Proof.Gen.ReferenceIdeal.Read
import proofs.«174191_j65481071410281_2_alg».proof.Proof.Ffn

noncomputable section

namespace Cert.ReferenceIdeal.RefValue

open Cert.ReferenceIdeal Cert.ReferenceIdeal.Gen Cert.ReferenceIdeal.Read Idealize.ShloMosaic Idealize.ShloMosaic.ValueIdx
open Cert.Ffn

/-- The reference's result stage, as a function of the five argument arrays, is `G` of them. -/
theorem ref_eq (x0 : FVec Ideal S4x4096x1024 .f32) (x1 : FVec Ideal S4096x8 .f32) (x2 : FVec Ideal S4096 .f32)
    (x3 : FVec Ideal S1024x4096 .f32) (x4 : FVec Ideal S1024 .f32) :
    val_main_v10 (F := Ideal) x0 x1 x2 x3 x4 = G x0 x1 x2 x3 x4 := by
  funext i
  obtain ⟨b, s, e, rfl⟩ : ∃ (b : Fin 4) (s : Fin 4096) (e : Fin 1024), i = ix3 b s e := ⟨i 0, i 1, i 2, eq_ix3 i⟩
  rw [G_apply, val_main_v10_apply, val_main_v7_apply, val_main_v9_apply, val_main_v8_apply, Ideal.addf_def]
  -- the second bias: both broadcasts read the vector at `e`
  have hb2 : idx_main_v8 (idx_main_v9 (ix3 b s e)) = ix1 e := funext fun a => by match a with | ⟨0, _⟩ => rfl
  rw [hb2]
  refine congrArg (· + x4 (ix1 e)) (Finset.sum_congr rfl fun f _ => ?_)
  -- hidden unit `f` of token `(b, s)`, and the weight `W2 (e, f)`
  have hr : ridx_main_v7 (ix3 b s e) f = ix2 e f := funext fun a => by match a with | ⟨0, _⟩ => rfl | ⟨1, _⟩ => rfl
  have hl : lidx_main_v7 (ix3 b s e) f = ix3 b s f := funext fun a => by match a with | ⟨0, _⟩ => rfl | ⟨1, _⟩ => rfl | ⟨2, _⟩ => rfl
  rw [hr, hl]
  refine congrArg (· * x3 (ix2 e f)) ?_
  rw [val_main_v6_apply, val_main_v5_apply, val_main_v2_apply, val_main_v4_apply, val_main_v3_apply,
    val_main_call0_v0_apply, val_main_call0_cst_apply, Ideal.addf_def, Ideal.maximumf_def]
  -- the first bias: both broadcasts read the vector at `f`
  have hb1 : idx_main_v3 (idx_main_v4 (ix3 b s f)) = ix1 f := funext fun a => by match a with | ⟨0, _⟩ => rfl
  rw [hb1]
  refine congrArg (fun z => max (z + x2 (ix1 f)) Mlp.zero) (Finset.sum_congr rfl fun q _ => ?_)
  -- feature `q` of token `(b, s)`, and the weight `W1 (f, q)`
  have hr1 : ridx_main_v2 (ix3 b s f) q = ix2 f q := funext fun a => by match a with | ⟨0, _⟩ => rfl | ⟨1, _⟩ => rfl
  have hx : idx_main_v0 (lidx_main_v2 (ix3 b s f) q) = ix3 b s (⟨q.val, by have := q.isLt; omega⟩ : Fin 1024) :=
    funext fun a => by match a with | ⟨0, _⟩ => rfl | ⟨1, _⟩ => rfl | ⟨2, _⟩ => rfl
  rw [hr1, val_main_v1_apply, val_main_v0_apply, hx, Ideal.hostUnary_cos_def]

end Cert.ReferenceIdeal.RefValue

end
-- ==== Proof.lean ====
/-
  A position-wise feed-forward network on the cosines of each token's first eight entries:

    out (b, s, e) = ∑ f, max (∑ q, cos (x (b, s, q)) · W1 (f, q) + b1 f) 0 · W2 (e, f) + b2 e.

  The kernel flattens the tokens to 16384 rows, keeps their first eight entries, and runs 32 grid points of 512 rows each
  against the transposed weights and the bias rows; the reference contracts the three-axis arrays directly. On the extended
  reals narrowing an operand to bf16 is the identity and both contractions are the same sums in the same order, so the two
  results are one function `Ffn.G` of the arguments and no finiteness of the inputs is used.

  `Ffn` states the network; `Body` reads the kernel body's stored block as the network of its token rows; `Blocks` joins
  the 32 row blocks into the region's output array; `Host` reads the operations around the region and names the kernel
  program's result; `Ref` reads the reference's result at an index. The kernel programs' frames are the generated ones, the
  reference's frame is its generated run with the result dropped, and the idealization rewrote nothing.
-/
import proofs.«174191_j65481071410281_2_alg».proof.Defs
import proofs.«174191_j65481071410281_2_alg».proof.Proof.Gen.Kernel
import proofs.«174191_j65481071410281_2_alg».proof.Proof.Gen.Kernel.Skeleton
import proofs.«174191_j65481071410281_2_alg».proof.Proof.Gen.Kernel.Launch
import proofs.«174191_j65481071410281_2_alg».proof.Proof.Gen.Kernel.Points
import proofs.«174191_j65481071410281_2_alg».proof.Proof.Gen.Kernel.Frame
import proofs.«174191_j65481071410281_2_alg».proof.Proof.Gen.KernelIdeal
import proofs.«174191_j65481071410281_2_alg».proof.Proof.Gen.KernelIdeal.Skeleton
import proofs.«174191_j65481071410281_2_alg».proof.Proof.Gen.KernelIdeal.Launch
import proofs.«174191_j65481071410281_2_alg».proof.Proof.Gen.KernelIdeal.Points
import proofs.«174191_j65481071410281_2_alg».proof.Proof.Gen.KernelIdeal.Frame
import proofs.«174191_j65481071410281_2_alg».proof.Proof.Gen.ReferenceIdeal
import proofs.«174191_j65481071410281_2_alg».proof.Proof.Gen.Pre_finite_inputs
import proofs.«174191_j65481071410281_2_alg».proof.Proof.Gen.ReferenceIdeal.Run
import proofs.«174191_j65481071410281_2_alg».proof.Proof.Gen.ReferenceIdeal.Read
import proofs.«174191_j65481071410281_2_alg».proof.Proof.Host
import proofs.«174191_j65481071410281_2_alg».proof.Proof.Ref
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with `Ffn.G` of their arguments, and the arguments agree. -/
theorem algebraic : Cert.algebraic_KernelIdeal_ReferenceIdeal := by
  intro m ρ m' ρ' _ hagree
  refine ⟨_, Cert.KernelIdeal.HostSide.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v10_eq _ _ _ _ _).trans (Cert.ReferenceIdeal.RefValue.ref_eq _ _ _ _ _)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
